-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4x4096 : Shape := ⟨2, ![4, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg4 : FVec F S4x4096 .f32) (main_arg5 : FVec F S4x4096 .f32) (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  let main_v19 : FVec F S4x4096 .f32 := Host.absf main_arg4
  let main_cst_6 : FVec F S_ .f32 := constant S_ .f32 0x7F800000#32
  let main_v20 : FVec F S4x4096 .f32 := broadcastInDim S4x4096 ![] bcast_S_S4x4096 main_cst_6
  let main_v21 : IVec S4x4096 1 := cmpf .olt main_v19 main_v20
  let main_c_7 : IVec S_ 1 := constantI S_ 1 1#1
  let main_v22 : IVec S_ 1 := (fun x v => Host.reduce IntOp.andi x v reducesTo_S4x4096_S_d0_1 h_S_) main_v21 main_c_7
  let main_v23 : IVec S_ 1 := andi main_v18 main_v22
  let main_v24 : FVec F S4x4096 .f32 := Host.absf main_arg5
  let main_cst_8 : FVec F S_ .f32 := constant S_ .f32 0x7F800000#32
  let main_v25 : FVec F S4x4096 .f32 := broadcastInDim S4x4096 ![] bcast_S_S4x4096 main_cst_8
  let main_v26 : IVec S4x4096 1 := cmpf .olt main_v24 main_v25
  let main_c_9 : IVec S_ 1 := constantI S_ 1 1#1
  let main_v27 : IVec S_ 1 := (fun x v => Host.reduce IntOp.andi x v reducesTo_S4x4096_S_d0_1 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S4096 .f32) (main_arg3 : FVec F S4x4096 .f32) (main_arg4 : FVec F S4x4096 .f32) (main_arg5 : FVec F S4x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4x4096 : Shape := ⟨2, ![4, 4096]⟩
abbrev S8192x4096 : Shape := ⟨2, ![8192, 4096]⟩
abbrev S4096x4 : Shape := ⟨2, ![4096, 4]⟩
abbrev S8192x4 : Shape := ⟨2, ![8192, 4]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S512x4096 : Shape := ⟨2, ![512, 4096]⟩
abbrev S512x4 : Shape := ⟨2, ![512, 4]⟩
abbrev S4x256 : Shape := ⟨2, ![4, 256]⟩
abbrev S256x4096 : Shape := ⟨2, ![256, 4096]⟩
abbrev S1x256 : Shape := ⟨2, ![1, 256]⟩
abbrev S512x256 : Shape := ⟨2, ![512, 256]⟩
abbrev S512x1 : Shape := ⟨2, ![512, 1]⟩

abbrev nBuf : Space → Nat
  | .hbm => 28
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4x4096, .f32⟩
  | .hbm, ⟨4, _⟩ => ⟨S4x4096, .f32⟩
  | .hbm, ⟨5, _⟩ => ⟨S4x4096, .f32⟩
  | .hbm, ⟨6, _⟩ => ⟨S8192x4096, .f32⟩
  | .hbm, ⟨7, _⟩ => ⟨S4096x4, .f32⟩
  | .hbm, ⟨8, _⟩ => ⟨S8192x4, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x4, .f32⟩
  | .hbm, ⟨16, _⟩ => ⟨S8192x4, .f32⟩
  | .hbm, ⟨17, _⟩ => ⟨S8192x4, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x4, .f32⟩
  | .hbm, ⟨22, _⟩ => ⟨S8192x4, .f32⟩
  | .hbm, ⟨23, _⟩ => ⟨S4096x4096, .f32⟩
  | .hbm, ⟨24, _⟩ => ⟨S4096x4096, .bf16⟩
  | .hbm, ⟨25, _⟩ => ⟨S1x4096, .f32⟩
  | .hbm, ⟨26, _⟩ => ⟨S8192x4096, .f32⟩
  | .hbm, ⟨27, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4, .f32⟩
  | .local _ .vmem, ⟨3, _⟩ => ⟨S512x4, .f32⟩
  | .local _ .vmem, ⟨4, _⟩ => ⟨S4x4096, .f32⟩
  | .local _ .vmem, ⟨5, _⟩ => ⟨S4x256, .f32⟩
  | .local _ .vmem, ⟨6, _⟩ => ⟨S4x256, .f32⟩
  | .local _ .vmem, ⟨7, _⟩ => ⟨S256x4096, .bf16⟩
  | .local _ .vmem, ⟨8, _⟩ => ⟨S256x4096, .bf16⟩
  | .local _ .vmem, ⟨9, _⟩ => ⟨S1x256, .f32⟩
  | .local _ .vmem, ⟨10, _⟩ => ⟨S1x256, .f32⟩
  | .local _ .vmem, ⟨11, _⟩ => ⟨S512x256, .f32⟩
  | .local _ .vmem, ⟨12, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x2048x4096_S8192x4096 : S4x2048x4096.ShapeCasts S8192x4096
  transposes_S4x4096_S4096x4_1_0 : S4x4096.Transposes [1, 0] S4096x4
  reducesTo_S8192x4_S8192_d1 : S8192x4.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4_0_1 : S8192x1.BroadcastsInDim S8192x4 (![0, 1] : Fin 2 → Fin S8192x4.rank)
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x4_S512x4_0_0 : ∀ a, (![0, 0] : Fin 2 → Nat) a + S512x4.size a ≤ S512x4.size a
  h_S512x4 : 0 < S512x4.numel
  shapeCasts_S512x4_S512x4 : S512x4.ShapeCasts S512x4
  inb_S4x4096_S4x4096_0_0 : ∀ a, (![0, 0] : Fin 2 → Nat) a + S4x4096.size a ≤ S4x4096.size a
  h_S4x4096 : 0 < S4x4096.numel
  inb_S4x256_S4x256_0_0 : ∀ a, (![0, 0] : Fin 2 → Nat) a + S4x256.size a ≤ S4x256.size a
  h_S4x256 : 0 < S4x256.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  slices_S512x4_o0_0_S512x1 : S512x4.Slices ![0, 0] S512x1
  slices_S4x4096_o0_0_S1x4096 : S4x4096.Slices ![0, 0] S1x4096
  broadcasts_S512x1_S512x4096 : S512x1.Broadcasts S512x4096
  broadcasts_S1x4096_S512x4096 : S1x4096.Broadcasts S512x4096
  slices_S512x4_o0_1_S512x1 : S512x4.Slices ![0, 1] S512x1
  slices_S4x4096_o1_0_S1x4096 : S4x4096.Slices ![1, 0] S1x4096
  slices_S512x4_o0_2_S512x1 : S512x4.Slices ![0, 2] S512x1
  slices_S4x4096_o2_0_S1x4096 : S4x4096.Slices ![2, 0] S1x4096
  slices_S512x4_o0_3_S512x1 : S512x4.Slices ![0, 3] S512x1
  slices_S4x4096_o3_0_S1x4096 : S4x4096.Slices ![3, 0] S1x4096
  slices_S4x256_o0_0_S1x256 : S4x256.Slices ![0, 0] S1x256
  broadcasts_S512x1_S512x256 : S512x1.Broadcasts S512x256
  broadcasts_S1x256_S512x256 : S1x256.Broadcasts S512x256
  slices_S4x256_o1_0_S1x256 : S4x256.Slices ![1, 0] S1x256
  slices_S4x256_o2_0_S1x256 : S4x256.Slices ![2, 0] S1x256
  slices_S4x256_o3_0_S1x256 : S4x256.Slices ![3, 0] S1x256
  inb_S512x256_S512x256_0_0 : ∀ a, (![0, 0] : Fin 2 → Nat) a + S512x256.size a ≤ S512x256.size a
  h_S512x256 : 0 < S512x256.numel
  shapeCasts_S8192x4096_S4x2048x4096 : S8192x4096.ShapeCasts S4x2048x4096
  dot_S8192x4096_S4096x4_S8192x4_1_0_0_1_n_n_wf : DotDims.WF S8192x4096 S4096x4 S8192x4 [1] [0] [0] [1] [] []
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4.size a ≤ S8192x4.size a
  hwx0_1 : ∀ i : grid0.Coords, EltTy.bits .f32 = 32 ∨ (Rect.block (s := S8192x4) S512x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x4096.size a ≤ S4x4096.size a
  hwx0_2 : ∀ i : grid0.Coords, EltTy.bits .f32 = 32 ∨ (Rect.block (s := S4x4096) S4x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256.size a ≤ S4x4096.size a
  hwx0_3 : ∀ i : grid0.Coords, EltTy.bits .f32 = 32 ∨ (Rect.block (s := S4x4096) S4x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .bf16 = 32 ∨ (Rect.block (s := S4096x4096) S256x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x4096.size a
  hwx0_5 : ∀ i : grid0.Coords, EltTy.bits .f32 = 32 ∨ (Rect.block (s := S1x4096) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S8192x4096.size a
  hwx0_6 : ∀ i : grid0.Coords, EltTy.bits .f32 = 32 ∨ (Rect.block (s := S8192x4096) S512x256.size (cc0_transform_6 i) (hinb0_6 i)).WholeWords (EltTy.packing .f32)

variable [Facts₀]

def dot_S8192x4096_S4096x4_S8192x4_1_0_0_1_n_n : DotDims S8192x4096 S4096x4 S8192x4 where
  lhsContracting := [1]
  rhsContracting := [0]
  lhsNonContracting := [0]
  rhsNonContracting := [1]
  lhsBatch := []
  rhsBatch := []
  wf := dot_S8192x4096_S4096x4_S8192x4_1_0_0_1_n_n_wf
def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S4x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S4x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4x4096 : Shape := ⟨2, ![4, 4096]⟩
abbrev S8192x4096 : Shape := ⟨2, ![8192, 4096]⟩
abbrev S4096x4 : Shape := ⟨2, ![4096, 4]⟩
abbrev S8192x4 : Shape := ⟨2, ![8192, 4]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4x4096, .f32⟩
  | .hbm, ⟨4, _⟩ => ⟨S4x4096, .f32⟩
  | .hbm, ⟨5, _⟩ => ⟨S4x4096, .f32⟩
  | .hbm, ⟨6, _⟩ => ⟨S8192x4096, .f32⟩
  | .hbm, ⟨7, _⟩ => ⟨S4096x4, .f32⟩
  | .hbm, ⟨8, _⟩ => ⟨S8192x4, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x4, .f32⟩
  | .hbm, ⟨16, _⟩ => ⟨S8192x4, .f32⟩
  | .hbm, ⟨17, _⟩ => ⟨S8192x4, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x4, .f32⟩
  | .hbm, ⟨22, _⟩ => ⟨S8192x4, .f32⟩
  | .hbm, ⟨23, _⟩ => ⟨S8192x4096, .f32⟩
  | .hbm, ⟨24, _⟩ => ⟨S8192x4096, .f32⟩
  | .hbm, ⟨25, _⟩ => ⟨S4096x4096, .f32⟩
  | .hbm, ⟨26, _⟩ => ⟨S8192x4096, .f32⟩
  | .hbm, ⟨27, _⟩ => ⟨S4096x4096, .f32⟩
  | .hbm, ⟨28, _⟩ => ⟨S8192x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | .hbm, ⟨33, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  shapeCasts_S4x2048x4096_S8192x4096 : S4x2048x4096.ShapeCasts S8192x4096
  transposes_S4x4096_S4096x4_1_0 : S4x4096.Transposes [1, 0] S4096x4
  reducesTo_S8192x4_S8192_d1 : S8192x4.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4_0_1 : S8192x1.BroadcastsInDim S8192x4 (![0, 1] : Fin 2 → Fin S8192x4.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x4_S8192x4_1_0_0_1_n_n_wf : DotDims.WF S8192x4096 S4096x4 S8192x4 [1] [0] [0] [1] [] []
  dot_S8192x4_S4x4096_S8192x4096_1_0_0_1_n_n_wf : DotDims.WF S8192x4 S4x4096 S8192x4096 [1] [0] [0] [1] [] []
  dot_S8192x4096_S4096x4096_S8192x4096_1_0_0_1_n_n_wf : DotDims.WF S8192x4096 S4096x4096 S8192x4096 [1] [0] [0] [1] [] []

variable [Facts₀]

def dot_S8192x4096_S4096x4_S8192x4_1_0_0_1_n_n : DotDims S8192x4096 S4096x4 S8192x4 where
  lhsContracting := [1]
  rhsContracting := [0]
  lhsNonContracting := [0]
  rhsNonContracting := [1]
  lhsBatch := []
  rhsBatch := []
  wf := dot_S8192x4096_S4096x4_S8192x4_1_0_0_1_n_n_wf
def dot_S8192x4_S4x4096_S8192x4096_1_0_0_1_n_n : DotDims S8192x4 S4x4096 S8192x4096 where
  lhsContracting := [1]
  rhsContracting := [0]
  lhsNonContracting := [0]
  rhsNonContracting := [1]
  lhsBatch := []
  rhsBatch := []
  wf := dot_S8192x4_S4x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibOuterTerms.lean ====
/-
  A column of one matrix beside a row of another, each stretched over a common a×b block, read at an index.

  A kernel that weights a block by "column e of an a×E matrix times row e of an E×b matrix" spells each factor as a
  unit-width slice followed by a broadcast. Read at (p, q) the stretched column is the matrix entry (p, e) and the
  stretched row is the matrix entry (e, q); their product is the (p, q) entry of the rank-one matrix they span.
  Nothing here mentions a program.
-/
import Idealize.ShloMosaic.PureOps.Ideal.Laws
import Idealize.ShloMosaic.Lib.ValueIdx
import Idealize.ShloMosaic.Lib.Pipeline.Value

namespace Cert.Lib.OuterTerms

open Idealize.ShloMosaic Idealize.ShloMosaic.ValueIdx

section Layout
variable {α : Type} {a b E : Nat}

/-- Column `e` of an a×E matrix, cut out as an a×1 slice and stretched over b columns, reads at (p, q) the matrix
    entry (p, e). -/
theorem col_stretch_apply (x : (⟨2, ![a, E]⟩ : Shape).Idx → α) (e : Nat) (he : e < E)
    (hs : (⟨2, ![a, E]⟩ : Shape).Slices ![0, e] ⟨2, ![a, 1]⟩)
    (hb : (⟨2, ![a, 1]⟩ : Shape).Broadcasts ⟨2, ![a, b]⟩) (p : Fin a) (q : Fin b) :
    broadcastTo ⟨2, ![a, b]⟩ (extractStridedSlice ⟨2, ![a, 1]⟩ ![0, e] x hs) hb (ix2 p q) = x (ix2 p ⟨e, he⟩) := by
  refine (broadcastTo_apply _ hb _ (ix2 p (0 : Fin 1)) fun ax => ?_).trans ?_
  · match ax with
    | ⟨0, _⟩ =>
      show p.val = if a = 1 then 0 else p.val
      split_ifs with ha
      · have := p.isLt; omega
      · rfl
    | ⟨1, _⟩ => rfl
  · exact extractStridedSlice_apply ![0, e] x hs (ix2 p (0 : Fin 1)) (ix2 p ⟨e, he⟩) fun ax => by
      match ax with
      | ⟨0, _⟩ => show p.val = 0 + p.val; omega
      | ⟨1, _⟩ => show e = e + 0; rfl

/-- Row `e` of an E×b matrix, cut out as a 1×b slice and stretched over a rows, reads at (p, q) the matrix
    entry (e, q). -/
theorem row_stretch_apply (y : (⟨2, ![E, b]⟩ : Shape).Idx → α) (e : Nat) (he : e < E)
    (hs : (⟨2, ![E, b]⟩ : Shape).Slices ![e, 0] ⟨2, ![1, b]⟩)
    (hb : (⟨2, ![1, b]⟩ : Shape).Broadcasts ⟨2, ![a, b]⟩) (p : Fin a) (q : Fin b) :
    broadcastTo ⟨2, ![a, b]⟩ (extractStridedSlice ⟨2, ![1, b]⟩ ![e, 0] y hs) hb (ix2 p q) = y (ix2 ⟨e, he⟩ q) := by
  refine (broadcastTo_apply _ hb _ (ix2 (0 : Fin 1) q) fun ax => ?_).trans ?_
  · match ax with
    | ⟨0, _⟩ => rfl
    | ⟨1, _⟩ =>
      show q.val = if b = 1 then 0 else q.val
      split_ifs with hb1
      · have := q.isLt; omega
      · rfl
  · exact extractStridedSlice_apply ![e, 0] y hs (ix2 (0 : Fin 1) q) (ix2 ⟨e, he⟩ q) fun ax => by
      match ax with
      | ⟨0, _⟩ => show e = e + 0; rfl
      | ⟨1, _⟩ => show q.val = 0 + q.val; omega

end Layout

section Product
variable {a b E : Nat} {φ : FTy}

/-- On the extended reals: the stretched column `e` of `x` times the stretched row `e` of `y` is at (p, q) the
    product x(p, e) · y(e, q), the (p, q) entry of the rank-one matrix spanned by that column and that row. -/
theorem outer_term_apply (x : FVec Ideal ⟨2, ![a, E]⟩ φ) (y : FVec Ideal ⟨2, ![E, b]⟩ φ) (e : Nat) (he : e < E)
    (hsx : (⟨2, ![a, E]⟩ : Shape).Slices ![0, e] ⟨2, ![a, 1]⟩) (hbx : (⟨2, ![a, 1]⟩ : Shape).Broadcasts ⟨2, ![a, b]⟩)
    (hsy : (⟨2, ![E, b]⟩ : Shape).Slices ![e, 0] ⟨2, ![1, b]⟩) (hby : (⟨2, ![1, b]⟩ : Shape).Broadcasts ⟨2, ![a, b]⟩)
    (p : Fin a) (q : Fin b) :
    mulf (broadcastTo ⟨2, ![a, b]⟩ (extractStridedSlice ⟨2, ![a, 1]⟩ ![0, e] x hsx) hbx)
         (broadcastTo ⟨2, ![a, b]⟩ (extractStridedSlice ⟨2, ![1, b]⟩ ![e, 0] y hsy) hby) (ix2 p q)
      = x (ix2 p ⟨e, he⟩) * y (ix2 ⟨e, he⟩ q) := by
  rw [mulf_apply, col_stretch_apply x e he hsx hbx p q, row_stretch_apply y e he hsy hby p q]

end Product

end Cert.Lib.OuterTerms
-- ==== Proof.Spec.lean ====
/-
  The layer both programs compute, as one function of whole arrays, on the extended reals.

  N = 8192 tokens, H = 4096 input channels, O = 4096 output channels, E = 4 scale sets. Given
    X : N×H   the tokens,                       R : N×E   each token's gate weights over the scale sets,
    S : O×H   the sign matrix of the weights,   A : E×H   the input-channel scales,   C : E×O the output-channel scales,
    b : O     the bias,
  a token's input scale at channel h is the gate-weighted mixture  (R·A)(n, h) = Σ_e R(n, e) · A(e, h),  its output
  scale at channel o is  (R·C)(n, o) = Σ_e R(n, e) · C(e, o),  and the layer is

      Y(n, o) = ( Σ_h (X(n, h) · (R·A)(n, h)) · S(o, h) ) · (R·C)(n, o) + b(o).

  Nothing here mentions a program.
-/
import Idealize.ShloMosaic.PureOps.Ideal.Laws
import Idealize.ShloMosaic.Lib.ValueIdx

open scoped BigOperators

noncomputable section

namespace Cert.ScaledSignLayer

open Idealize.ShloMosaic Idealize.ShloMosaic.ValueIdx

/-- The gate-weighted mixture of the E = 4 rows of a scale table `T` (E×W) for token `n`, at channel `w`. -/
def mix {W : Nat} (R : FVec Ideal ⟨2, ![8192, 4]⟩ .f32) (T : FVec Ideal ⟨2, ![4, W]⟩ .f32) (n : Fin 8192) (w : Fin W) : EReal :=
  ∑ e : Fin 4, R (ix2 n e) * T (ix2 e w)

/-- The layer's entry for token `n` and output channel `o`. -/
def entry (X : FVec Ideal ⟨2, ![8192, 4096]⟩ .f32) (R : FVec Ideal ⟨2, ![8192, 4]⟩ .f32)
    (S : FVec Ideal ⟨2, ![4096, 4096]⟩ .f32) (A C : FVec Ideal ⟨2, ![4, 4096]⟩ .f32) (b : FVec Ideal ⟨1, ![4096]⟩ .f32)
    (n : Fin 8192) (o : Fin 4096) : EReal :=
  (∑ h : Fin 4096, (X (ix2 n h) * mix R A n h) * S (ix2 o h)) * mix R C n o + b (ix1 o)

/-- The layer as an N×O array. -/
def layer (X : FVec Ideal ⟨2, ![8192, 4096]⟩ .f32) (R : FVec Ideal ⟨2, ![8192, 4]⟩ .f32)
    (S : FVec Ideal ⟨2, ![4096, 4096]⟩ .f32) (A C : FVec Ideal ⟨2, ![4, 4096]⟩ .f32) (b : FVec Ideal ⟨1, ![4096]⟩ .f32) :
    FVec Ideal ⟨2, ![8192, 4096]⟩ .f32 :=
  fun i => entry X R S A C b (i 0) (i 1)

theorem layer_apply (X : FVec Ideal ⟨2, ![8192, 4096]⟩ .f32) (R : FVec Ideal ⟨2, ![8192, 4]⟩ .f32)
    (S : FVec Ideal ⟨2, ![4096, 4096]⟩ .f32) (A C : FVec Ideal ⟨2, ![4, 4096]⟩ .f32) (b : FVec Ideal ⟨1, ![4096]⟩ .f32)
    (n : Fin 8192) (o : Fin 4096) : layer X R S A C b (ix2 n o) = entry X R S A C b n o := rfl

/-- The mixture written out: the four terms added from the left, as an unrolled accumulation leaves them. -/
theorem mix_unrolled {W : Nat} (R : FVec Ideal ⟨2, ![8192, 4]⟩ .f32) (T : FVec Ideal ⟨2, ![4, W]⟩ .f32) (n : Fin 8192) (w : Fin W) :
    mix R T n w = R (ix2 n ⟨0, by decide⟩) * T (ix2 ⟨0, by decide⟩ w) + R (ix2 n ⟨1, by decide⟩) * T (ix2 ⟨1, by decide⟩ w)
      + R (ix2 n ⟨2, by decide⟩) * T (ix2 ⟨2, by decide⟩ w) + R (ix2 n ⟨3, by decide⟩) * T (ix2 ⟨3, by decide⟩ w) := by
  unfold mix
  rw [Fin.sum_univ_four]
  rfl

end Cert.ScaledSignLayer

end
-- ==== Proof.Body.lean ====
/-
  The kernel body's stored value at one entry of its 512×256 output block.

  The body holds a 512×4096 block of tokens `x0`, those tokens' 512×4 gate weights `x1`, the whole 4×4096 table of
  input-channel scales `x2`, a 4×256 block of output-channel scales `x3`, a 256×4096 block of sign rows `x4` and a
  1×256 block of the bias `x5`. It forms the input scale as the four rank-one terms  x1[:, e] · x2[e, :]  added from the
  left, the output scale the same way from `x3`, scales the tokens, contracts them with the sign rows along the 4096
  input channels into zeros, multiplies by the output scale and adds the bias row. At (p, q) that is

      ( Σ_h (x0(p, h) · Σ_e x1(p, e) · x2(e, h)) · x4(q, h) ) · (Σ_e x1(p, e) · x3(e, q)) + x5(0, q),

  which is the layer's entry (n, o) whenever row p of the token block is token n and column q of the output block is
  channel o.
-/
import proofs.«178699_j16054587752856_2_alg».proof.Proof.Gen.KernelIdeal.Skeleton
import proofs.«178699_j16054587752856_2_alg».proof.Proof.LibBlockReads
import proofs.«178699_j16054587752856_2_alg».proof.Proof.LibOuterTerms
import proofs.«178699_j16054587752856_2_alg».proof.Proof.Spec
import Idealize.ShloMosaic.Lib.Pipeline.Value
import Idealize.ShloMosaic.Lib.ValueIdx

open scoped BigOperators

noncomputable section

namespace Cert.KernelIdeal.Body

open Cert.KernelIdeal Cert.KernelIdeal.Gen Idealize.ShloMosaic Idealize.ShloMosaic.ValueIdx
open Cert.ScaledSignLayer Cert.Lib.OuterTerms Cert.Lib.BlockReads

/-- The body's input scale at (p, h): the gate-weighted mixture of the four input-scale rows for the token in row p. -/
theorem inScale_apply (x1 : Vec Ideal S512x4 .f32) (x2 : Vec Ideal S4x4096 .f32)
    (R : FVec Ideal ⟨2, ![8192, 4]⟩ .f32) (A : FVec Ideal ⟨2, ![4, 4096]⟩ .f32) (n : Fin 8192) (p : Fin 512) (h : Fin 4096)
    (h1 : ∀ e : Fin 4, x1 (ix2 p e) = R (ix2 n e)) (h2 : ∀ (e : Fin 4) (k : Fin 4096), x2 (ix2 e k) = A (ix2 e k)) :
    k0_pay6 (F := Ideal) x1 x2 (ix2 p h) = mix R A n h := by
  rw [mix_unrolled]
  unfold k0_pay6 k0_pay3
  dsimp only
  simp only [shapeCast_self, addf_apply]
  refine congrArg₂ (· + ·) (congrArg₂ (· + ·) (congrArg₂ (· + ·) ?_ ?_) ?_) ?_
  · exact (outer_term_apply (φ := .f32) x1 x2 0 (by decide) _ _ _ _ p h).trans (congrArg₂ (· * ·) (h1 _) (h2 _ _))
  · exact (outer_term_apply (φ := .f32) x1 x2 1 (by decide) _ _ _ _ p h).trans (congrArg₂ (· * ·) (h1 _) (h2 _ _))
  · exact (outer_term_apply (φ := .f32) x1 x2 2 (by decide) _ _ _ _ p h).trans (congrArg₂ (· * ·) (h1 _) (h2 _ _))
  · exact (outer_term_apply (φ := .f32) x1 x2 3 (by decide) _ _ _ _ p h).trans (congrArg₂ (· * ·) (h1 _) (h2 _ _))

/-- The body's stored value at (p, q) is the layer's entry (n, o), when row p of the token block is token n, column q
    of the output block is output channel o, and each input block holds the matching part of its array. -/
theorem stored_apply (x0 : Vec Ideal S512x4096 .f32) (x1 : Vec Ideal S512x4 .f32) (x2 : Vec Ideal S4x4096 .f32)
    (x3 : Vec Ideal S4x256 .f32) (x4 : Vec Ideal S256x4096 .bf16) (x5 : Vec Ideal S1x256 .f32)
    (X : FVec Ideal ⟨2, ![8192, 4096]⟩ .f32) (R : FVec Ideal ⟨2, ![8192, 4]⟩ .f32)
    (S : FVec Ideal ⟨2, ![4096, 4096]⟩ .f32) (A C : FVec Ideal ⟨2, ![4, 4096]⟩ .f32) (b : FVec Ideal ⟨1, ![4096]⟩ .f32)
    (n : Fin 8192) (o : Fin 4096) (p : Fin 512) (q : Fin 256)
    (h0 : ∀ h : Fin 4096, x0 (ix2 p h) = X (ix2 n h))
    (h1 : ∀ e : Fin 4, x1 (ix2 p e) = R (ix2 n e))
    (h2 : ∀ (e : Fin 4) (h : Fin 4096), x2 (ix2 e h) = A (ix2 e h))
    (h3 : ∀ e : Fin 4, x3 (ix2 e q) = C (ix2 e o))
    (h4 : ∀ h : Fin 4096, x4 (ix2 q h) = S (ix2 o h))
    (h5 : x5 (ix2 (0 : Fin 1) q) = b (ix1 o)) :
    k0_pay1 (F := Ideal) (k0_pay2 x0) (k0_pay3 x1) x3 (k0_pay4 x4) (k0_pay5 x5) (k0_pay6 x1 x2) (k0_pay7 x1 x3)
        (k0_pay8 x1) (k0_pay9 x3) (ix2 p q)
      = entry X R S A C b n o := by
  have hin : ∀ h : Fin 4096, k0_pay6 (F := Ideal) x1 x2 (ix2 p h) = mix R A n h :=
    fun h => inScale_apply x1 x2 R A n p h h1 h2
  unfold entry
  rw [mix_unrolled R C n o]
  unfold k0_pay1 k0_pay7 k0_pay8 k0_pay9 k0_pay2 k0_pay3 k0_pay4 k0_pay5
  dsimp only
  simp only [shapeCast_self, addf_apply, mulf_apply]
  refine congrArg₂ (· + ·) (congrArg₂ (· * ·) ?_
    (congrArg₂ (· + ·) (congrArg₂ (· + ·) (congrArg₂ (· + ·) ?_ ?_) ?_) ?_)) ?_
  · -- the contraction with the sign rows
    refine (matmul_zero_cols_apply (φ₁ := .bf16) (φ₂ := .bf16) dot_S512x4096_S256x4096_S512x256_1_1_0_0_n_n rfl rfl rfl rfl rfl rfl none _ _ p q).trans
      (Finset.sum_congr rfl fun h _ => ?_)
    show x0 (ix2 p h) * k0_pay6 (F := Ideal) x1 x2 (ix2 p h) * x4 (ix2 q h) = _
    rw [h0 h, hin h, h4 h]
  · exact congrArg₂ (· * ·) ((col_stretch_apply x1 0 (by decide) _ _ p q).trans (h1 _))
      ((row_stretch_apply x3 0 (by decide) _ _ p q).trans (h3 _))
  · exact congrArg₂ (· * ·) ((col_stretch_apply x1 1 (by decide) _ _ p q).trans (h1 _))
      ((row_stretch_apply x3 1 (by decide) _ _ p q).trans (h3 _))
  · exact congrArg₂ (· * ·) ((col_stretch_apply x1 2 (by decide) _ _ p q).trans (h1 _))
      ((row_stretch_apply x3 2 (by decide) _ _ p q).trans (h3 _))
  · exact congrArg₂ (· * ·) ((col_stretch_apply x1 3 (by decide) _ _ p q).trans (h1 _))
      ((row_stretch_apply x3 3 (by decide) _ _ p q).trans (h3 _))
  · exact (broadcast_row_apply x5 _ p q).trans h5

end Cert.KernelIdeal.Body

end
-- ==== Proof.Blocks.lean ====
/-
  From blocks to the array: what the launch leaves in the kernel's 8192×4096 output.

  The grid has 16 × 16 points. Point (i, j) is handed rows 512·i … 512·i + 511 of the tokens and of the gate weights,
  the whole table of input-channel scales, columns 256·j … 256·j + 255 of the output-channel scales and of the bias row,
  and rows 256·j … 256·j + 255 of the sign matrix, and writes back the 512×256 block (i, j) of the output. So the entry
  (p, q) it writes is the layer's entry for token 512·i + p and output channel 256·j + q; the 256 blocks tile the
  output, and the output array ends holding the layer of the arrays the launch was given.
-/
import proofs.«178699_j16054587752856_2_alg».proof.Proof.Gen.KernelIdeal.Frame
import proofs.«178699_j16054587752856_2_alg».proof.Proof.Body
import proofs.«178699_j16054587752856_2_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.ScaledSignLayer

variable (m : (ℓ : Loc nD τ sig) → Buf (Elt Ideal) ℓ) (ρ : Dev nD → PrngReg)

theorem hz : (![0, 0] : Fin 2 → Nat) = fun _ => 0 := funext fun a => by fin_cases a <;> rfl

/-- The entries of a 1×4096 row, as a vector of 4096. -/
def rowEntries (B : FVec Ideal ⟨2, ![1, 4096]⟩ .f32) : FVec Ideal ⟨1, ![4096]⟩ .f32 := fun j => B (ix2 (0 : Fin 1) (j 0))

/-- The layer of the arrays the launch is given: the flattened tokens, the gate weights, the sign matrix, the two
    scale tables and the bias row. -/
def target (c : Dev nD) : FVec Ideal ⟨2, ![8192, 4096]⟩ .f32 :=
  layer (V m c main_v0) (V m c main_v13) (V m c main_v15) (V m c main_arg4) (V m c main_arg5) (rowEntries (V m c main_v16))

/-- Where each window's block sits at point t, relative to the output block, and the output block's own position:
    point t is (t / 16, t mod 16). -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = win0_6.index t (1 : Fin 2)
    ∧ win0_4.index t (0 : Fin 2) = win0_6.index t (1 : Fin 2) ∧ win0_4.index t (1 : Fin 2) = 0
    ∧ win0_5.index t (0 : Fin 2) = 0 ∧ win0_5.index t (1 : Fin 2) = win0_6.index t (1 : Fin 2)
    ∧ win0_6.index t (0 : Fin 2) = t.val / 16 ∧ win0_6.index t (1 : Fin 2) = t.val % 16 :=
  (by decide +kernel : ∀ t : Fin grid0.N, _)

/-! ## Each input block as part of its array -/

/-- Row p of the token block at point t is token 512·(t / 16) + p. -/
theorem tokens_read (c : Dev nD) (t : Fin cfg0.N) (p : Fin 512) (h : Fin 4096) (n : Fin 8192)
    (hn : n.val = win0_6.index t (0 : Fin 2) * 512 + p.val) :
    (iblk m c 0 t : Vec Ideal S512x4096 .f32) (ix2 p h) = (V m c main_v0 : S8192x4096.Idx → EReal) (ix2 n h) := by
  obtain ⟨e0, e1, -⟩ := idx_facts t
  show V m c main_v0 (((cfg0.win 0).blk t).view.emb (ix2 p h)) = _
  refine congrArg (V m c main_v0) (funext fun a => Fin.ext ?_)
  match a with
  | ⟨0, _⟩ => show win0_0.index t (0 : Fin 2) * 512 + 1 * p.val = n.val; rw [e0, hn]; omega
  | ⟨1, _⟩ => show win0_0.index t (1 : Fin 2) * 4096 + 1 * h.val = h.val; rw [e1]; omega

/-- Row p of the gate-weight block at point t belongs to the same token. -/
theorem gates_read (c : Dev nD) (t : Fin cfg0.N) (p : Fin 512) (e : Fin 4) (n : Fin 8192)
    (hn : n.val = win0_6.index t (0 : Fin 2) * 512 + p.val) :
    (iblk m c 1 t : Vec Ideal S512x4 .f32) (ix2 p e) = (V m c main_v13 : S8192x4.Idx → EReal) (ix2 n e) := by
  obtain ⟨-, -, e0, e1, -⟩ := idx_facts t
  show V m c main_v13 (((cfg0.win 1).blk t).view.emb (ix2 p e)) = _
  refine congrArg (V m c main_v13) (funext fun a => Fin.ext ?_)
  match a with
  | ⟨0, _⟩ => show win0_1.index t (0 : Fin 2) * 512 + 1 * p.val = n.val; rw [e0, hn]; omega
  | ⟨1, _⟩ => show win0_1.index t (1 : Fin 2) * 4 + 1 * e.val = e.val; rw [e1]; omega

/-- The input-channel scales are handed over whole. -/
theorem inScales_read (c : Dev nD) (t : Fin cfg0.N) (e : Fin 4) (h : Fin 4096) :
    (iblk m c 2 t : Vec Ideal S4x4096 .f32) (ix2 e h) = (V m c main_arg4 : S4x4096.Idx → EReal) (ix2 e h) := by
  obtain ⟨-, -, -, -, e0, e1, -⟩ := idx_facts t
  show V m c main_arg4 (((cfg0.win 2).blk t).view.emb (ix2 e h)) = _
  refine congrArg (V m c main_arg4) (funext fun a => Fin.ext ?_)
  match a with
  | ⟨0, _⟩ => show win0_2.index t (0 : Fin 2) * 4 + 1 * e.val = e.val; rw [e0]; omega
  | ⟨1, _⟩ => show win0_2.index t (1 : Fin 2) * 4096 + 1 * h.val = h.val; rw [e1]; omega

/-- Column q of the output-scale block at point t is output channel 256·(t mod 16) + q. -/
theorem outScales_read (c : Dev nD) (t : Fin cfg0.N) (e : Fin 4) (q : Fin 256) (o : Fin 4096)
    (ho : o.val = win0_6.index t (1 : Fin 2) * 256 + q.val) :
    (iblk m c 3 t : Vec Ideal S4x256 .f32) (ix2 e q) = (V m c main_arg5 : S4x4096.Idx → EReal) (ix2 e o) := by
  obtain ⟨-, -, -, -, -, -, e0, e1, -⟩ := idx_facts t
  show V m c main_arg5 (((cfg0.win 3).blk t).view.emb (ix2 e q)) = _
  refine congrArg (V m c main_arg5) (funext fun a => Fin.ext ?_)
  match a with
  | ⟨0, _⟩ => show win0_3.index t (0 : Fin 2) * 4 + 1 * e.val = e.val; rw [e0]; omega
  | ⟨1, _⟩ => show win0_3.index t (1 : Fin 2) * 256 + 1 * q.val = o.val; rw [e1, ho]; omega

/-- Row q of the sign block at point t is the sign row of the same output channel. -/
theorem signs_read (c : Dev nD) (t : Fin cfg0.N) (q : Fin 256) (h : Fin 4096) (o : Fin 4096)
    (ho : o.val = win0_6.index t (1 : Fin 2) * 256 + q.val) :
    (iblk m c 4 t : Vec Ideal S256x4096 .bf16) (ix2 q h) = (V m c main_v15 : S4096x4096.Idx → EReal) (ix2 o h) := by
  obtain ⟨-, -, -, -, -, -, -, -, e0, e1, -⟩ := idx_facts t
  show V m c main_v15 (((cfg0.win 4).blk t).view.emb (ix2 q h)) = _
  refine congrArg (V m c main_v15) (funext fun a => Fin.ext ?_)
  match a with
  | ⟨0, _⟩ => show win0_4.index t (0 : Fin 2) * 256 + 1 * q.val = o.val; rw [e0, ho]; omega
  | ⟨1, _⟩ => show win0_4.index t (1 : Fin 2) * 4096 + 1 * h.val = h.val; rw [e1]; omega

/-- Column q of the bias block at point t is the bias of the same output channel. -/
theorem bias_read (c : Dev nD) (t : Fin cfg0.N) (q : Fin 256) (o : Fin 4096)
    (ho : o.val = win0_6.index t (1 : Fin 2) * 256 + q.val) :
    (iblk m c 5 t : Vec Ideal S1x256 .f32) (ix2 (0 : Fin 1) q) = (V m c main_v16 : S1x4096.Idx → EReal) (ix2 (0 : Fin 1) o) := by
  obtain ⟨-, -, -, -, -, -, -, -, -, -, e0, e1, -⟩ := idx_facts t
  show V m c main_v16 (((cfg0.win 5).blk t).view.emb (ix2 (0 : Fin 1) q)) = _
  refine congrArg (V m c main_v16) (funext fun a => Fin.ext ?_)
  match a with
  | ⟨0, _⟩ => show win0_5.index t (0 : Fin 2) * 1 + 1 * 0 = 0; rw [e0]
  | ⟨1, _⟩ => show win0_5.index t (1 : Fin 2) * 256 + 1 * q.val = o.val; rw [e1, ho]; omega

/-! ## What a point writes back -/

/-- What point t writes back is block t of the layer of the arrays the launch is given. -/
theorem flushed_eq (c : Dev nD) (t : Fin cfg0.N) :
    (dats m 0 c).flushed 6 t = ((cfg0.win 6).blk t).view.read (Elt Ideal) (target m c) := by
  show (cfg0.win 6).cut (grid0.coords t) ((dats m 0 c).after 6 t) = _
  rw [after0_6]
  unfold out0_6
  rw [View.canon_unit_zero hz]
  simp only [View.ld_unit_zero (S := S512x4096) hz, View.ld_unit_zero (S := S512x4) hz, View.ld_unit_zero (S := S4x4096) hz,
    View.ld_unit_zero (S := S4x256) hz, View.ld_unit_zero (S := S256x4096) hz, View.ld_unit_zero (S := S1x256) hz]
  refine funext fun (j : S512x256.Idx) => ?_
  obtain ⟨p, q, rfl⟩ : ∃ (p : Fin 512) (q : Fin 256), j = ix2 p q := ⟨j 0, j 1, eq_ix2 j⟩
  have e6 := (idx_facts t).2.2.2.2.2.2.2.2.2.2.2.2
  have ht : t.val < 256 := Nat.lt_of_lt_of_eq t.isLt N_0
  have hn : win0_6.index t (0 : Fin 2) * 512 + p.val < 8192 := by rw [e6.1]; omega
  have ho : win0_6.index t (1 : Fin 2) * 256 + q.val < 4096 := by rw [e6.2]; omega
  show k0_pay1 (F := Ideal) (k0_pay2 (iblk m c 0 t)) (k0_pay3 (iblk m c 1 t)) (iblk m c 3 t) (k0_pay4 (iblk m c 4 t))
      (k0_pay5 (iblk m c 5 t)) (k0_pay6 (iblk m c 1 t) (iblk m c 2 t)) (k0_pay7 (iblk m c 1 t) (iblk m c 3 t))
      (k0_pay8 (iblk m c 1 t)) (k0_pay9 (iblk m c 3 t)) (ix2 p q)
    = target m c (((cfg0.win 6).blk t).view.emb (ix2 p q))
  have hemb : ((cfg0.win 6).blk t).view.emb (ix2 p q)
      = ix2 (⟨win0_6.index t (0 : Fin 2) * 512 + p.val, hn⟩ : Fin 8192) (⟨win0_6.index t (1 : Fin 2) * 256 + q.val, ho⟩ : Fin 4096) :=
    funext fun a => Fin.ext (by
      match a with
      | ⟨0, _⟩ => show win0_6.index t (0 : Fin 2) * 512 + 1 * p.val = win0_6.index t (0 : Fin 2) * 512 + p.val; omega
      | ⟨1, _⟩ => show win0_6.index t (1 : Fin 2) * 256 + 1 * q.val = win0_6.index t (1 : Fin 2) * 256 + q.val; omega)
  rw [hemb]
  unfold target
  rw [layer_apply]
  exact Cert.KernelIdeal.Body.stored_apply (iblk m c 0 t) (iblk m c 1 t) (iblk m c 2 t) (iblk m c 3 t) (iblk m c 4 t) (iblk m c 5 t)
    _ _ _ _ _ _ ⟨_, hn⟩ ⟨_, ho⟩ p q
    (fun h => tokens_read m c t p h _ rfl) (fun e => gates_read m c t p e _ rfl) (fun e h => inScales_read m c t e h)
    (fun e => outScales_read m c t e q _ rfl) (fun h => signs_read m c t q h _ rfl) (bias_read m c t q _ rfl)

/-! ## The 256 blocks tile the output -/

/-- An index of the output is in point t's block iff each coordinate is in the block's range on its axis. -/
theorem mem_blk (t : Fin cfg0.N) (i : S8192x4096.Idx) :
    i ∈ ((cfg0.win 6).blk t).view.set ↔ ∀ a : Fin 2, win0_6.index t a * S512x256.size a ≤ (i a).val
      ∧ (i a).val < win0_6.index t a * S512x256.size a + S512x256.size a := by
  show i ∈ ((View.whole main_v17).slice (win0_6.rect t)).set ↔ _
  rw [View.set_slice_whole, Rect.mem_set_unit]
  exact Iff.rfl

/-- Entry (n, o) of the output is written back by point (n / 512, o / 256). -/
theorem cover (i : S8192x4096.Idx) :
    ∃ t : Fin cfg0.N, (cfg0.win 6).flush t = true ∧ i ∈ ((cfg0.win 6).blk t).view.set := by
  have h0 : (i 0).val < 8192 := (i 0).isLt
  have h1 : (i 1).val < 4096 := (i 1).isLt
  have hN : (i 0).val / 512 * 16 + (i 1).val / 256 < cfg0.N := Nat.lt_of_lt_of_eq (by omega) N_0.symm
  refine ⟨⟨(i 0).val / 512 * 16 + (i 1).val / 256, hN⟩, flush0_6 _, ?_⟩
  rw [mem_blk]
  have e6 := (idx_facts ⟨(i 0).val / 512 * 16 + (i 1).val / 256, hN⟩).2.2.2.2.2.2.2.2.2.2.2.2
  intro a
  match a with
  | ⟨0, _⟩ =>
    show win0_6.index ⟨(i 0).val / 512 * 16 + (i 1).val / 256, hN⟩ (0 : Fin 2) * 512 ≤ (i 0).val
      ∧ (i 0).val < win0_6.index ⟨(i 0).val / 512 * 16 + (i 1).val / 256, hN⟩ (0 : Fin 2) * 512 + 512
    rw [e6.1]
    show ((i 0).val / 512 * 16 + (i 1).val / 256) / 16 * 512 ≤ (i 0).val
      ∧ (i 0).val < ((i 0).val / 512 * 16 + (i 1).val / 256) / 16 * 512 + 512
    omega
  | ⟨1, _⟩ =>
    show win0_6.index ⟨(i 0).val / 512 * 16 + (i 1).val / 256, hN⟩ (1 : Fin 2) * 256 ≤ (i 1).val
      ∧ (i 1).val < win0_6.index ⟨(i 0).val / 512 * 16 + (i 1).val / 256, hN⟩ (1 : Fin 2) * 256 + 256
    rw [e6.2]
    show ((i 0).val / 512 * 16 + (i 1).val / 256) % 16 * 256 ≤ (i 1).val
      ∧ (i 1).val < ((i 0).val / 512 * 16 + (i 1).val / 256) % 16 * 256 + 256
    omega

/-- The output array after the launch is the layer of the arrays the launch is given. -/
theorem final (c : Dev nD) : (dats m 0 c).arrAt 6 cfg0.N = target m c :=
  (dats m 0 c).arrAt_eq_of_cover 6 (target m c) (fun t _ => flushed_eq m c t) (fun i => cover i)

end Cert.KernelIdeal.Blocks

end
-- ==== Proof.KernelRun.lean ====
/-
  The kernel program's run, read: after the launch the program re-shapes the 8192×4096 output to 4×2048×4096, so its
  result is the layer of the arrays the launch was given, re-shaped; the six arguments end as they were.
-/
import proofs.«178699_j16054587752856_2_alg».proof.Proof.Blocks
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Result

open Cert.KernelIdeal Cert.KernelIdeal.Gen Cert.KernelIdeal.Blocks

variable (m : (ℓ : Loc nD τ sig) → Buf (Elt Ideal) ℓ) (ρ : Dev nD → PrngReg)

/-- The program's result: the layer, re-shaped. -/
def result (c : Dev nD) : Buf (Elt Ideal) ((c.tc : Thread nD τ).loc main_v18) :=
  shapeCast S4x2048x4096 (target m c) shapeCasts_S8192x4096_S4x2048x4096

/-- The one operation after the launch re-shapes the output array. -/
theorem tail_eq (c : Dev nD) :
    Pipeline.afterTail₀ cfgs (dats m) 0 (V0 m) [hostOps1] c main_v18 = result m c := by
  unfold Pipeline.afterTail₀ result
  show StableHlo.after hostOps1 _ (Proc.devRef .tc main_v18) = _
  after_results
  have e : Pipeline.withArrays (cfgs 0).spec c (V0 m c) (fun w => (dats m 0 c).arrAt w (cfgs 0).N) (Proc.tc.devRef main_v17)
      = target m c :=
    (Pipeline.withArrays_arr spec0 launch0.win.arr_inj c _ _ 6).trans (final m c)
  rw [e]
  rfl

/-- Every weakly fair execution of the kernel program terminates with its result at the layer, re-shaped, and its six
    arguments unchanged. -/
theorem run : θ_run defs (onTc (τ := τ) (main (F := Ideal))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c)))⟩)
    (run_main m ρ)

end Cert.KernelIdeal.Result

end
-- ==== Proof.Prefix.lean ====
/-
  The arrays the launch is given, as functions of the arguments.

  Before the launch the program flattens the tokens to 8192×4096, computes each token's gate weights (the tokens times
  the transposed gate matrix, then a softmax along the four scale sets), takes the sign of the weight matrix, and lays
  the bias out as a 1×4096 row. Each of these is the same operation, on the same arguments, that the reference applies:
  the flattening, the gate weights and the sign matrix are stated here as the reference's own stages, so that the gate
  computation is carried as one function and never opened. A change of float format is the identity on the extended
  reals, so the sign matrix handed to the kernel in the narrower format is the sign matrix.
-/
import proofs.«178699_j16054587752856_2_alg».proof.Proof.Gen.KernelIdeal.Frame
import proofs.«178699_j16054587752856_2_alg».proof.Proof.Gen.ReferenceIdeal.Read
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.Prefix

open Cert.KernelIdeal Cert.KernelIdeal.Gen

variable (m : (ℓ : Loc nD τ sig) → Buf (Elt Ideal) ℓ)

/-- The flattened tokens. -/
theorem tokens_eq (c : Dev nD) :
    (V m c main_v0 : S8192x4096.Idx → EReal)
      = Cert.ReferenceIdeal.Read.val_main_v0 (F := Ideal) (m ((c : Thread nD τ).loc main_arg0)) := by
  show StableHlo.after hostOps0 (fun b => m (c, b)) (Proc.devRef .tc main_v0) = _
  after_results
  rfl

/-- The gate weights. -/
theorem gates_eq (c : Dev nD) :
    (V m c main_v13 : S8192x4.Idx → EReal)
      = Cert.ReferenceIdeal.Read.val_main_v13 (F := Ideal) (m ((c : Thread nD τ).loc main_arg0)) (m ((c : Thread nD τ).loc main_arg3)) := by
  show StableHlo.after hostOps0 (fun b => m (c, b)) (Proc.devRef .tc main_v13) = _
  after_results
  rfl

/-- The sign matrix. -/
theorem signs_eq (c : Dev nD) :
    (V m c main_v15 : S4096x4096.Idx → EReal)
      = Cert.ReferenceIdeal.Read.val_main_v16 (F := Ideal) (m ((c : Thread nD τ).loc main_arg1)) := by
  show StableHlo.after hostOps0 (fun b => m (c, b)) (Proc.devRef .tc main_v15) = _
  after_results
  rfl

/-- The bias row: entry (0, o) is the bias of channel o. -/
theorem biasRow_apply (c : Dev nD) (o : Fin 4096) :
    (V m c main_v16 : S1x4096.Idx → EReal) (ix2 (0 : Fin 1) o) = (m ((c : Thread nD τ).loc main_arg2) : S4096.Idx → EReal) (ix1 o) := by
  have e : (V m c main_v16 : S1x4096.Idx → EReal)
      = shapeCast S1x4096 (m ((c : Thread nD τ).loc main_arg2) : S4096.Idx → EReal) shapeCasts_S4096_S1x4096 := by
    show StableHlo.after hostOps0 (fun b => m (c, b)) (Proc.devRef .tc main_v16) = _
    after_results
    rfl
  rw [e]
  refine shapeCast_apply _ shapeCasts_S4096_S1x4096 _ _ ?_
  rw [Shape.rowMajor_val_one, Shape.rowMajor_val_two]
  show o.val = 0 * 4096 + o.val
  omega

end Cert.KernelIdeal.Prefix

end
-- ==== Proof.Reference.lean ====
/-
  The reference computes the layer.

  Read one operation at a time, the reference's last array before the final re-shaping is, at (n, o),

      ( Σ_h (X(n, h) · Σ_e R(n, e) · A(e, h)) · Sᵀ(h, o) ) · (Σ_e R(n, e) · C(e, o)) + b(o),

  with X the tokens flattened to 8192×4096, R the gate weights (the softmax stage), Sᵀ the transposed sign matrix, A and C
  the two scale tables and b the bias stretched over the rows: the layer's entry, term by term.
-/
import proofs.«178699_j16054587752856_2_alg».proof.Proof.Gen.ReferenceIdeal.Read
import proofs.«178699_j16054587752856_2_alg».proof.Proof.Spec
import Idealize.ShloMosaic.Lib.ValueIdx

open scoped BigOperators

noncomputable section

namespace Cert.ReferenceIdeal.Layer

open Cert.ReferenceIdeal Cert.ReferenceIdeal.Read Idealize.ShloMosaic Idealize.ShloMosaic.ValueIdx
open Cert.ScaledSignLayer

/-- A product of the gate weights with a 4×4096 scale table, read at (n, w), is the mixture of the table's rows. -/
theorem gate_sum (R : FVec Ideal ⟨2, ![8192, 4]⟩ .f32) (T : FVec Ideal ⟨2, ![4, 4096]⟩ .f32) (n : Fin 8192) (w : Fin 4096) :
    (∑ e : Fin 4, R (lidx_main_v14 (ix2 n w) e) * T (ridx_main_v14 (ix2 n w) e)) = mix R T n w := by
  unfold mix
  refine Finset.sum_congr rfl fun e _ => ?_
  have el : lidx_main_v14 (ix2 n w) e = ix2 n e :=
    funext fun a => Fin.ext (by match a with | ⟨0, _⟩ => rfl | ⟨1, _⟩ => rfl)
  have er : ridx_main_v14 (ix2 n w) e = ix2 e w :=
    funext fun a => Fin.ext (by match a with | ⟨0, _⟩ => rfl | ⟨1, _⟩ => rfl)
  rw [el, er]

/-- The reference's array before its final re-shaping is the layer of its own stages. -/
theorem sum_stage_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 x4 x5 : (⟨S4x4096, .f32⟩ : BufTy).Contents (Elt Ideal)) :
    val_main_v23 (F := Ideal) x0 x1 x2 x3 x4 x5
      = layer (val_main_v0 (F := Ideal) x0) (val_main_v13 (F := Ideal) x0 x3) (val_main_v16 (F := Ideal) x1) x4 x5 x2 := by
  funext i
  obtain ⟨n, o, rfl⟩ : ∃ (n : Fin 8192) (o : Fin 4096), i = ix2 n o := ⟨i 0, i 1, eq_ix2 i⟩
  rw [layer_apply, val_main_v23_apply, val_main_v20_apply, val_main_v19_apply, val_main_v15_apply, val_main_v22_apply,
    val_main_v21_apply]
  unfold entry
  refine congrArg₂ (· + ·) (congrArg₂ (· * ·) (Finset.sum_congr rfl fun h _ => ?_) ?_) ?_
  · have el : lidx_main_v19 (ix2 n o) h = ix2 n h :=
      funext fun a => Fin.ext (by match a with | ⟨0, _⟩ => rfl | ⟨1, _⟩ => rfl)
    have er : ridx_main_v19 (ix2 n o) h = ix2 h o :=
      funext fun a => Fin.ext (by match a with | ⟨0, _⟩ => rfl | ⟨1, _⟩ => rfl)
    have et : idx_main_v18 (ix2 h o) = ix2 o h :=
      funext fun a => Fin.ext (by match a with | ⟨0, _⟩ => rfl | ⟨1, _⟩ => rfl)
    rw [el, er, val_main_v17_apply, val_main_v14_apply, val_main_v18_apply, et]
    exact congrArg₂ (· * ·) (congrArg₂ (· * ·) rfl (gate_sum _ x4 n h)) rfl
  · exact gate_sum _ x5 n o
  · exact congrArg x2 (funext fun a => Fin.ext (by match a with | ⟨0, _⟩ => rfl))

end Cert.ReferenceIdeal.Layer

end
-- ==== Proof.lean ====
/-
  A linear layer with sign-binarized weights and gate-mixed channel scales: the kernel program and the reference
  compute the same array on the extended reals.

  Both programs flatten the tokens X (4×2048×4096) to N×H with N = 8192, H = 4096, compute each token's gate weights
  R = softmax(X·Gᵀ) over E = 4 scale sets by the same operations, and take the sign matrix S of the O×H weights
  (O = 4096). With A (E×H) and C (E×O) the input- and output-channel scale tables and b the bias, both then produce

      Y(n, o) = ( Σ_h (X(n, h) · Σ_e R(n, e)·A(e, h)) · S(o, h) ) · (Σ_e R(n, e)·C(e, o)) + b(o),

  re-shaped to 4×2048×4096.

  The reference forms R·A and R·C as matrix products, multiplies, contracts with the transposed sign matrix, scales and
  adds the bias stretched over the rows. The kernel works on a 16×16 grid: point (i, j) takes 512 tokens and 256 output
  channels, builds the two scales as four rank-one terms added from the left, contracts the scaled tokens with the 256
  sign rows over all of H, scales and adds the bias; the 256 blocks tile the output. A sum over four scale sets is the
  four terms added from the left, a matrix product into zeros is the sum over the contracted channel, and a change of
  float format is the identity, so the two agree entry by entry; only associativity of the four-term sum is used, and
  no finiteness of the inputs. The gate computation is the same function of the same arguments in both programs and is
  never opened.

  The three frames are the generated ones (for the reference, its generated run with the result dropped). The
  idealized kernel program is the kernel program's own text read on the extended reals, so there is nothing to preserve.
-/
import proofs.«178699_j16054587752856_2_alg».proof.Defs
import proofs.«178699_j16054587752856_2_alg».proof.Proof.Gen.Kernel
import proofs.«178699_j16054587752856_2_alg».proof.Proof.Gen.Kernel.Frame
import proofs.«178699_j16054587752856_2_alg».proof.Proof.Gen.KernelIdeal
import proofs.«178699_j16054587752856_2_alg».proof.Proof.Gen.KernelIdeal.Frame
import proofs.«178699_j16054587752856_2_alg».proof.Proof.Gen.ReferenceIdeal
import proofs.«178699_j16054587752856_2_alg».proof.Proof.Gen.Pre_finite_inputs
import proofs.«178699_j16054587752856_2_alg».proof.Proof.Gen.ReferenceIdeal.Run
import proofs.«178699_j16054587752856_2_alg».proof.Proof.Gen.ReferenceIdeal.Read
import proofs.«178699_j16054587752856_2_alg».proof.Proof.KernelRun
import proofs.«178699_j16054587752856_2_alg».proof.Proof.Prefix
import proofs.«178699_j16054587752856_2_alg».proof.Proof.Reference
import Idealize.ShloMosaic.Adequacy
import Idealize.ShloMosaic.Init

noncomputable section

namespace Cert.Proof

open Idealize.ShloMosaic Idealize.ShloMosaic.TcCoe Idealize.SL.Sem Idealize.ShloMosaic.ValueIdx

section Bridge

open Cert.KernelIdeal Cert.KernelIdeal.Gen

variable (m : (ℓ : Loc nD τ sig) → Buf (Elt Ideal) ℓ)

/-- The layer of the arrays the launch is given is the reference's array before its final re-shaping, of the same
    arguments: the launch's arrays are the reference's own stages, and the reference's array is the layer of those. -/
theorem target_eq (c : Dev nD) :
    Cert.KernelIdeal.Blocks.target m c
      = Cert.ReferenceIdeal.Read.val_main_v23 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) := by
  have hb : Cert.KernelIdeal.Blocks.rowEntries (V m c main_v16) = m ((c : Thread nD τ).loc main_arg2) :=
    funext fun j => by
      rw [eq_ix1 j]
      exact Cert.KernelIdeal.Prefix.biasRow_apply m c (j 0)
  rw [Cert.ReferenceIdeal.Layer.sum_stage_eq]
  unfold Cert.KernelIdeal.Blocks.target
  rw [hb, Cert.KernelIdeal.Prefix.tokens_eq, Cert.KernelIdeal.Prefix.gates_eq, Cert.KernelIdeal.Prefix.signs_eq,
    V_main_arg4, V_main_arg5]

/-- The kernel program's result is the reference's result term of the same arguments. -/
theorem result_eq (c : Dev nD) :
    Cert.KernelIdeal.Result.result m c
      = Cert.ReferenceIdeal.Read.val_main_v24 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) := by
  unfold Cert.KernelIdeal.Result.result Cert.ReferenceIdeal.Read.val_main_v24
  rw [target_eq]

end Bridge

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the six arguments, the kernel program and the reference both terminate, with equal
    results: the kernel's is the layer re-shaped, and so is the reference's. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v24_eq, a0, a1, a2, a3, a4, a5]
  exact (result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
